-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S4x2048 : Shape := ⟨2, ![4, 2048]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel

variable [Facts]

def fn {F : FTy → Type} [FloatOps F] (main_arg0 : FVec F S4x12x2048x64 .f32) (main_arg1 : FVec F S4x12x2048x64 .f32) (main_arg2 : FVec F S4x12x2048x64 .f32) (main_arg3 : IVec S4x2048 32) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x12x2048x64 .f32 := Host.absf main_arg2
  let main_cst_2 : FVec F S_ .f32 := constant S_ .f32 0x7F800000#32
  let main_v10 : FVec F S4x12x2048x64 .f32 := broadcastInDim S4x12x2048x64 ![] bcast_S_S4x12x2048x64 main_cst_2
  let main_v11 : IVec S4x12x2048x64 1 := cmpf .olt main_v9 main_v10
  let main_c_3 : IVec S_ 1 := constantI S_ 1 1#1
  let main_v12 : IVec S_ 1 := (fun x v => Host.reduce IntOp.andi x v reducesTo_S4x12x2048x64_S_d0_1_2_3 h_S_) main_v11 main_c_3
  let main_v13 : IVec S_ 1 := andi main_v8 main_v12
  main_v13
-- ==== Kernel.lean ====
abbrev S4x12x2048x64 : Shape := ⟨4, ![4, 12, 2048, 64]⟩
abbrev S4x2048 : Shape := ⟨2, ![4, 2048]⟩
abbrev S_ : Shape := ⟨0, ![]⟩
abbrev S4x1x2048 : Shape := ⟨3, ![4, 1, 2048]⟩
abbrev S4x12x2048x2048 : Shape := ⟨4, ![4, 12, 2048, 2048]⟩
abbrev S1x1x512x64 : Shape := ⟨4, ![1, 1, 512, 64]⟩
abbrev S1x1x2048x64 : Shape := ⟨4, ![1, 1, 2048, 64]⟩
abbrev S1x1x2048 : Shape := ⟨3, ![1, 1, 2048]⟩
abbrev S1x1x512x2048 : Shape := ⟨4, ![1, 1, 512, 2048]⟩
abbrev S512x64 : Shape := ⟨2, ![512, 64]⟩
abbrev S2048x64 : Shape := ⟨2, ![2048, 64]⟩
abbrev S2048 : Shape := ⟨1, ![2048]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x2048, .i32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S4x12x2048x64, .f32⟩
  | .hbm, ⟨16, _⟩ => ⟨S4x12x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 12, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bcast_S_S4x2048 : S_.BroadcastsInDim S4x2048 (![] : Fin 0 → Fin S4x2048.rank)
  shapeCasts_S4x2048_S4x1x2048 : S4x2048.ShapeCasts S4x1x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x12x2048x64.size a
  hwx0_0 : ∀ i : grid0.Coords, EltTy.bits .f32 = 32 ∨ (Rect.block (s := S4x12x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x12x2048x64.size a
  hwx0_1 : ∀ i : grid0.Coords, EltTy.bits .f32 = 32 ∨ (Rect.block (s := S4x12x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x12x2048x64.size a
  hwx0_2 : ∀ i : grid0.Coords, EltTy.bits .f32 = 32 ∨ (Rect.block (s := S4x12x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x12x2048x64.size a
  hwx0_4 : ∀ i : grid0.Coords, EltTy.bits .f32 = 32 ∨ (Rect.block (s := S4x12x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x12x2048x2048.size a
  hwx0_5 : ∀ i : grid0.Coords, EltTy.bits .f32 = 32 ∨ (Rect.block (s := S4x12x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x12x2048x64 : Shape := ⟨4, ![4, 12, 2048, 64]⟩
abbrev S4x2048 : Shape := ⟨2, ![4, 2048]⟩
abbrev S4x12x2048x2048 : Shape := ⟨4, ![4, 12, 2048, 2048]⟩
abbrev S_ : Shape := ⟨0, ![]⟩
abbrev S4x1x1x2048 : Shape := ⟨4, ![4, 1, 1, 2048]⟩
abbrev S4x12x2048 : Shape := ⟨3, ![4, 12, 2048]⟩
abbrev S4x12x2048x1 : Shape := ⟨4, ![4, 12, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x2048, .i32⟩
  | .hbm, ⟨4, _⟩ => ⟨S4x12x2048x2048, .f32⟩
  | .hbm, ⟨5, _⟩ => ⟨S_, .f32⟩
  | .hbm, ⟨6, _⟩ => ⟨S4x12x2048x2048, .f32⟩
  | .hbm, ⟨7, _⟩ => ⟨S4x12x2048x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x1x1x2048, .f32⟩
  | .hbm, ⟨13, _⟩ => ⟨S_, .f32⟩
  | .hbm, ⟨14, _⟩ => ⟨S4x1x1x2048, .f32⟩
  | .hbm, ⟨15, _⟩ => ⟨S4x1x1x2048, .f32⟩
  | .hbm, ⟨16, _⟩ => ⟨S4x12x2048x2048, .f32⟩
  | .hbm, ⟨17, _⟩ => ⟨S4x12x2048x2048, .f32⟩
  | .hbm, ⟨18, _⟩ => ⟨S_, .f32⟩
  | .hbm, ⟨19, _⟩ => ⟨S4x12x2048x2048, .f32⟩
  | .hbm, ⟨20, _⟩ => ⟨S4x12x2048x2048, .f32⟩
  | .hbm, ⟨21, _⟩ => ⟨S4x12x2048x2048, .f32⟩
  | .hbm, ⟨22, _⟩ => ⟨S_, .f32⟩
  | .hbm, ⟨23, _⟩ => ⟨S4x12x2048, .f32⟩
  | .hbm, ⟨24, _⟩ => ⟨S4x12x2048x1, .f32⟩
  | .hbm, ⟨25, _⟩ => ⟨S_, .f32⟩
  | .hbm, ⟨26, _⟩ => ⟨S4x12x2048x1, .f32⟩
  | .hbm, ⟨27, _⟩ => ⟨S4x12x2048x1, .f32⟩
  | .hbm, ⟨28, _⟩ => ⟨S4x12x2048x2048, .f32⟩
  | .hbm, ⟨29, _⟩ => ⟨S4x12x2048x2048, .f32⟩
  | .hbm, ⟨30, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S4x12x2048x2048 : S_.BroadcastsInDim S4x12x2048x2048 (![] : Fin 0 → Fin S4x12x2048x2048.rank)
  bcast_S_S4x2048 : S_.BroadcastsInDim S4x2048 (![] : Fin 0 → Fin S4x2048.rank)
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S4x1x1x2048_S4x12x2048x2048_0_1_2_3 : S4x1x1x2048.BroadcastsInDim S4x12x2048x2048 (![0, 1, 2, 3] : Fin 4 → Fin S4x12x2048x2048.rank)
  reducesTo_S4x12x2048x2048_S4x12x2048_d3 : S4x12x2048x2048.ReducesTo [3] S4x12x2048
  h_S_ : 0 < S_.numel
  bcast_S4x12x2048_S4x12x2048x1_0_1_2 : S4x12x2048.BroadcastsInDim S4x12x2048x1 (![0, 1, 2] : Fin 3 → Fin S4x12x2048x1.rank)
  bcast_S_S4x12x2048x1 : S_.BroadcastsInDim S4x12x2048x1 (![] : Fin 0 → Fin S4x12x2048x1.rank)
  bcast_S4x12x2048x1_S4x12x2048x2048_0_1_2_3 : S4x12x2048x1.BroadcastsInDim S4x12x2048x2048 (![0, 1, 2, 3] : Fin 4 → Fin S4x12x2048x2048.rank)
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.QuadSpec.lean ====
/-
  Quadratic attention normalised by a row sum, on the extended reals.

  For query row `i` and key `j` of head `(b, h)` the logit is `x = (q_i · k_j) / 8 + u_j + 3`, where `u` is the additive
  mask of batch `b`; the weight is `x² / (∑_j x² + ε)`, and the output row is `∑_j weight_j · v_j`.
  Two spellings of the weight meet here: the product with the reciprocal of the row sum, `x² · (1 / D)`, and the
  quotient `x² / D`. They agree whenever `D ≠ 0`, at the infinities too, and `D = ∑ x² + ε` is never zero because a
  square is nonnegative on the extended reals and `ε > 0`.
-/
import Idealize.ShloMosaic.PureOps.Ideal
import Idealize.ShloMosaic.PureOps.Ideal.Laws
import Idealize.ShloMosaic.Lib.ValueIdx

noncomputable section

namespace Cert.QuadAttn

open Idealize.ShloMosaic Idealize.ShloMosaic.ValueIdx

/-! ## The constants, as the float words both programs spell -/

/-- `1/8`, the score scale `1/√64`. -/
abbrev cScale : EReal := Ideal.ofBits .f32 0x3E000000#32
/-- `3`, the shift inside the square. -/
abbrev cShift : EReal := Ideal.ofBits .f32 0x40400000#32
/-- `ε`, the float nearest `10⁻⁶`. -/
abbrev cEps : EReal := Ideal.ofBits .f32 0x358637BD#32
/-- `1`. -/
abbrev cOne : EReal := Ideal.ofBits .f32 0x3F800000#32
/-- `-10⁴`, the weight of a masked key. -/
abbrev cMasked : EReal := Ideal.ofBits .f32 0xC61C4000#32

theorem cOne_eq : cOne = 1 := by
  simp [Ideal.ofBits, Ideal.ieee, -EReal.coe_mul]; norm_num

theorem cEps_pos : 0 < cEps := by
  simp [Ideal.ofBits, Ideal.ieee, -EReal.coe_mul]

/-! ## The arrays -/

/-- Queries, keys, values: `[batch 4, head 12, position 2048, feature 64]`. -/
abbrev Heads : Type := (⟨4, ![4, 12, 2048, 64]⟩ : Shape).Idx → EReal
/-- The additive mask `u[b, j]`: `[batch 4, key 2048]`. -/
abbrev Mask : Type := (⟨2, ![4, 2048]⟩ : Shape).Idx → EReal
/-- The weights: `[batch 4, head 12, query 2048, key 2048]`. -/
abbrev Weights : Type := (⟨4, ![4, 12, 2048, 2048]⟩ : Shape).Idx → EReal

/-- The additive mask of a 0/1 integer mask `m`: `u = (1 - m) · (-10⁴)`, zero on a kept key and `-10⁴` on a masked one. -/
def maskOf (M : (⟨2, ![4, 2048]⟩ : Shape).Idx → BitVec 32) : Mask :=
  fun y => (cOne - FloatOps.sitofp (F := Ideal) .f32 (M y)) * cMasked

/-- `q_i · k_j`: the sum over the 64 features. -/
def score (Q K : Heads) (b : Fin 4) (h : Fin 12) (i j : Fin 2048) : EReal :=
  ∑ d : Fin 64, Q (ix4 b h i d) * K (ix4 b h j d)

/-- The logit `(q_i · k_j) / 8 + u_j + 3`, the shift added last. -/
def logit (Q K : Heads) (U : Mask) (b : Fin 4) (h : Fin 12) (i j : Fin 2048) : EReal :=
  (score Q K b h i j * cScale + U (ix2 b j)) + cShift

/-- The squared logit. -/
def sqLogit (Q K : Heads) (U : Mask) (b : Fin 4) (h : Fin 12) (i j : Fin 2048) : EReal :=
  logit Q K U b h i j * logit Q K U b h i j

/-- The normaliser of query row `i`: the squares over all keys, plus `ε`. -/
def rowNorm (Q K : Heads) (U : Mask) (b : Fin 4) (h : Fin 12) (i : Fin 2048) : EReal :=
  (∑ j : Fin 2048, sqLogit Q K U b h i j) + cEps

/-- The weight of key `j` for query `i`: the square over the normaliser. -/
def weight (Q K : Heads) (U : Mask) (b : Fin 4) (h : Fin 12) (i j : Fin 2048) : EReal :=
  Ideal.div (sqLogit Q K U b h i j) (rowNorm Q K U b h i)

/-- The attended value: the weights of row `i` against feature `d` of the values. -/
def attend (Q K V : Heads) (U : Mask) (b : Fin 4) (h : Fin 12) (i : Fin 2048) (d : Fin 64) : EReal :=
  ∑ j : Fin 2048, weight Q K U b h i j * V (ix4 b h j d)

/-- The weight array. -/
def weights (Q K : Heads) (U : Mask) : Weights := fun y => weight Q K U (y 0) (y 1) (y 2) (y 3)

/-- The output array. -/
def outputs (Q K V : Heads) (U : Mask) : Heads := fun y => attend Q K V U (y 0) (y 1) (y 2) (y 3)

/-! ## The two laws -/

/-- A square is nonnegative on the extended reals: `(±∞)² = +∞`. -/
theorem mul_self_nonneg (x : EReal) : 0 ≤ x * x := by
  induction x using EReal.rec with
  | bot => simp
  | coe r => exact_mod_cast _root_.mul_self_nonneg r
  | top => simp

/-- A sum of squares plus `ε` is positive, hence not zero. -/
theorem sum_sq_add_eps_ne_zero {ι : Type} (s : Finset ι) (x : ι → EReal) : (∑ j ∈ s, x j * x j) + cEps ≠ 0 := by
  have h0 : 0 ≤ ∑ j ∈ s, x j * x j := Finset.sum_nonneg fun j _ => mul_self_nonneg (x j)
  exact (lt_of_lt_of_le cEps_pos (le_add_of_nonneg_left h0)).ne'

theorem rowNorm_ne_zero (Q K : Heads) (U : Mask) (b : Fin 4) (h : Fin 12) (i : Fin 2048) : rowNorm Q K U b h i ≠ 0 :=
  sum_sq_add_eps_ne_zero _ _

/-- The product with the reciprocal is the quotient, off a zero divisor: `n · (1 / D) = n / D`. -/
theorem mul_one_div (n D : EReal) (hD : D ≠ 0) : n * Ideal.div cOne D = Ideal.div n D := by
  rw [Ideal.div, Ideal.div, if_neg hD, if_neg hD, cOne_eq, one_mul]

/-- The shift may be added to the mask first: `s + (u + 3) = (s + u) + 3`. -/
theorem shift_assoc (s u : EReal) : s + (u + cShift) = (s + u) + cShift := (add_assoc s u cShift).symm

end Cert.QuadAttn

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibUnitLead.lean ====
/-
  Shape casts that drop two leading unit axes, or insert a unit axis in the middle, read at an index.
  A shape cast keeps the row-major position. The position of `(0, 0, i, j)` in `[1, 1, a, b]` is
  `((0 · 1 + 0) · a + i) · b + j = i · b + j`, the position of `(i, j)` in `[a, b]`; the position of `(i, 0, j)` in
  `[a, 1, b]` is `(i · 1 + 0) · b + j`, again `i · b + j`.
-/
import Idealize.ShloMosaic.Lib.Pipeline.Value
import Idealize.ShloMosaic.Lib.ValueIdx

noncomputable section

namespace Cert.UnitLead

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.UnitLead

end
-- ==== Proof.BodyRead.lean ====
/-
  The kernel body's two stored values read at an index, on the extended reals.

  The body loads a query block `q` (512 rows of 64 features), the head's keys `k` and values `v` (2048 rows each)
  and the batch's shifted mask `w` (2048 keys). It stores, at `(r, j)`,
      `n(r, j) · (1 / (∑_j' n(r, j') + ε))`  with  `n(r, j) = ((∑_d q(r, d) · k(j, d)) · (1/8) + w(j))²`,
  and, at `(r, d)`, the sum over the keys `j` of that weight times `v(j, d)`.
  Changes of float format are the identity here; a matrix product into a zero accumulator is the plain sum over
  the contracted axis; a lane reduction is the sum over the reduced axis.
-/
import proofs.«116007_j47691316855177_2_alg».proof.Proof.Gen.KernelIdeal.Skeleton
import proofs.«116007_j47691316855177_2_alg».proof.Proof.QuadSpec
import proofs.«116007_j47691316855177_2_alg».proof.Proof.LibColumn
import proofs.«116007_j47691316855177_2_alg».proof.Proof.LibUnitLead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The two matrix products -/

/-- Scores, left operand: the row is the result's row. -/
theorem scores_lhs_row (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- Scores, left operand: the feature is the contracted coordinate. -/
theorem scores_lhs_feat (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- Scores, right operand: the row is the result's column. -/
theorem scores_rhs_row (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- Scores, right operand: the feature is the contracted coordinate. -/
theorem scores_rhs_feat (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys, both contracted on their feature axis: entry `(r, j)` is `∑_d A(r, d) · B(j, d)`. -/
theorem scores_apply (A : FVec Ideal S512x64 .bf16) (B : FVec Ideal S2048x64 .bf16) (r : Fin 512) (j : Fin 2048) :
    matmul dot_S512x64_S2048x64_S512x2048_1_1_0_0_n_n none A B (constant (F := Ideal) S512x2048 .f32 0x00000000#32) (ix2 r j)
      = ∑ d : Fin 64, A (ix2 r d) * B (ix2 j d) := by
  refine (Ideal.matmul_constant_zero_apply dot_S512x64_S2048x64_S512x2048_1_1_0_0_n_n none A B (ix2 r j)).trans ?_
  rw [← Equiv.sum_comp (ValueIdx.contrEquiv1 dot_S512x64_S2048x64_S512x2048_1_1_0_0_n_n 64 rfl rfl).symm]
  refine Finset.sum_congr rfl fun d _ => ?_
  have hd := ValueIdx.contrEquiv1_symm_val dot_S512x64_S2048x64_S512x2048_1_1_0_0_n_n 64 rfl rfl d
  have el : dot_S512x64_S2048x64_S512x2048_1_1_0_0_n_n.lhsIdx (ix2 r j) ((ValueIdx.contrEquiv1 dot_S512x64_S2048x64_S512x2048_1_1_0_0_n_n 64 rfl rfl).symm d) = ix2 r d :=
    funext fun a => Fin.ext (by
      match a with
      | ⟨0, _⟩ => exact scores_lhs_row _ _
      | ⟨1, _⟩ => exact (scores_lhs_feat _ _).trans hd)
  have er : dot_S512x64_S2048x64_S512x2048_1_1_0_0_n_n.rhsIdx (ix2 r j) ((ValueIdx.contrEquiv1 dot_S512x64_S2048x64_S512x2048_1_1_0_0_n_n 64 rfl rfl).symm d) = ix2 j d :=
    funext fun a => Fin.ext (by
      match a with
      | ⟨0, _⟩ => exact scores_rhs_row _ _
      | ⟨1, _⟩ => exact (scores_rhs_feat _ _).trans hd)
  rw [el, er]

/-- Mixing, left operand: the row is the result's row. -/
theorem mix_lhs_row (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- Mixing, left operand: the key is the contracted coordinate. -/
theorem mix_lhs_key (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- Mixing, right operand: the key is the contracted coordinate. -/
theorem mix_rhs_key (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- Mixing, right operand: the feature is the result's column. -/
theorem mix_rhs_feat (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights against values, contracted on the key axis: entry `(r, d)` is `∑_j A(r, j) · B(j, d)`. -/
theorem mix_apply (A : FVec Ideal S512x2048 .bf16) (B : FVec Ideal S2048x64 .bf16) (r : Fin 512) (d : Fin 64) :
    matmul dot_S512x2048_S2048x64_S512x64_1_0_0_1_n_n none A B (constant (F := Ideal) S512x64 .f32 0x00000000#32) (ix2 r d)
      = ∑ j : Fin 2048, A (ix2 r j) * B (ix2 j d) := by
  refine (Ideal.matmul_constant_zero_apply dot_S512x2048_S2048x64_S512x64_1_0_0_1_n_n none A B (ix2 r d)).trans ?_
  rw [← Equiv.sum_comp (ValueIdx.contrEquiv1 dot_S512x2048_S2048x64_S512x64_1_0_0_1_n_n 2048 rfl rfl).symm]
  refine Finset.sum_congr rfl fun j _ => ?_
  have hj := ValueIdx.contrEquiv1_symm_val dot_S512x2048_S2048x64_S512x64_1_0_0_1_n_n 2048 rfl rfl j
  have el : dot_S512x2048_S2048x64_S512x64_1_0_0_1_n_n.lhsIdx (ix2 r d) ((ValueIdx.contrEquiv1 dot_S512x2048_S2048x64_S512x64_1_0_0_1_n_n 2048 rfl rfl).symm j) = ix2 r j :=
    funext fun a => Fin.ext (by
      match a with
      | ⟨0, _⟩ => exact mix_lhs_row _ _
      | ⟨1, _⟩ => exact (mix_lhs_key _ _).trans hj)
  have er : dot_S512x2048_S2048x64_S512x64_1_0_0_1_n_n.rhsIdx (ix2 r d) ((ValueIdx.contrEquiv1 dot_S512x2048_S2048x64_S512x64_1_0_0_1_n_n 2048 rfl rfl).symm j) = ix2 j d :=
    funext fun a => Fin.ext (by
      match a with
      | ⟨0, _⟩ => exact (mix_rhs_key _ _).trans hj
      | ⟨1, _⟩ => exact mix_rhs_feat _ _)
  rw [el, er]

/-! ## The row sum -/

/-- The lane reduction over the key axis, from a zero accumulator: entry `r` is `∑_j X(r, j)`. -/
theorem rowsum_apply (X : FVec Ideal S512x2048 .f32) (hφ : FKind.Formats .f32) (hacc : (0x00000000#32 : BitVec 32) = 0x00000000#32) (r : Fin 512) :
    multiReduction (F := Ideal) .add [1] S512 X 0x00000000#32 reduces_S512x2048_S512 hφ hacc (ix1 r)
      = ∑ j : Fin 2048, X (ix2 r j) := by
  refine (Ideal.multiReduction_add_single X 0x00000000#32 reduces_S512x2048_S512 hφ hacc (ix1 r)).trans ?_
  refine Finset.sum_congr rfl fun j _ => congrArg X ?_
  funext a
  apply Fin.ext
  match a with
  | ⟨0, _⟩ => rfl
  | ⟨1, _⟩ => rfl

/-! ## The stored values as trees of vector operations, and at an index -/

section
variable (P0 : Vec Ideal S1x1x512x64 .f32) (P1 : Vec Ideal S1x1x2048x64 .f32) (P2 : Vec Ideal S1x1x2048x64 .f32) (P3 : Vec Ideal S1x1x2048 .f32)

/-- The block's logits as the body computes them: scores scaled by `1/8`, the shifted mask's row added to every query row. -/
def logitVec : FVec Ideal S512x2048 .f32 :=
  addf (mulf (matmul dot_S512x64_S2048x64_S512x2048_1_1_0_0_n_n none
        (truncf .bf16 (shapeCast S512x64 P0 shapeCasts_S1x1x512x64_S512x64) bitsLt_bf16_f32)
        (truncf .bf16 (shapeCast S2048x64 P1 shapeCasts_S1x1x2048x64_S2048x64) bitsLt_bf16_f32)
        (constant (F := Ideal) S512x2048 .f32 0x00000000#32))
      (broadcast S512x2048 (Scalar.ofBits (F := Ideal) .f32 0x3E000000#32)))
    (broadcastTo S512x2048 (shapeCast S1x2048 (shapeCast S2048 P3 shapeCasts_S1x1x2048_S2048) shapeCasts_S2048_S1x2048) broadcasts_S1x2048_S512x2048)

/-- Their squares. -/
def sqVec : FVec Ideal S512x2048 .f32 := mulf (logitVec P0 P1 P3) (logitVec P0 P1 P3)

/-- Each query row's normaliser, as a column: the row sum of the squares plus `ε`. -/
def normVec : FVec Ideal S512x1 .f32 :=
  addf (shapeCast S512x1 (multiReduction (F := Ideal) .add [1] S512 (sqVec P0 P1 P3) 0x00000000#32 reduces_S512x2048_S512 (.inl rfl) rfl) shapeCasts_S512_S512x1)
    (broadcast S512x1 (Scalar.ofBits (F := Ideal) .f32 0x358637BD#32))

/-- The weights: each square times the reciprocal of its row's normaliser. -/
def weightVec : FVec Ideal S512x2048 .f32 :=
  mulf (sqVec P0 P1 P3)
    (broadcastTo S512x2048 (divf (broadcast S512x1 (Scalar.ofBits (F := Ideal) .f32 0x3F800000#32)) (normVec P0 P1 P3)) broadcasts_S512x1_S512x2048)

/-- The body's stored weights are that tree. -/
theorem pay2_eq : k0_pay2 (F := Ideal) P0 P1 P3 = weightVec P0 P1 P3 := rfl

/-- The body's stored outputs: the weights against the head's values. -/
theorem pay4_eq : k0_pay4 (F := Ideal) P0 P1 P2 P3 =
    matmul dot_S512x2048_S2048x64_S512x64_1_0_0_1_n_n none (truncf .bf16 (weightVec P0 P1 P3) bitsLt_bf16_f32)
      (truncf .bf16 (shapeCast S2048x64 P2 shapeCasts_S1x1x2048x64_S2048x64) bitsLt_bf16_f32) (constant (F := Ideal) S512x64 .f32 0x00000000#32) := rfl

/-- The logit of query row `r` and key `j` of the block. -/
def blockLogit (r : Fin 512) (j : Fin 2048) : EReal :=
  (∑ d : Fin 64, P0 (ix4 (0 : Fin 1) (0 : Fin 1) r d) * P1 (ix4 (0 : Fin 1) (0 : Fin 1) j d)) * Cert.QuadAttn.cScale
    + P3 (ix3 (0 : Fin 1) (0 : Fin 1) j)

/-- Its square. -/
def blockSq (r : Fin 512) (j : Fin 2048) : EReal := blockLogit P0 P1 P3 r j * blockLogit P0 P1 P3 r j

/-- The row's normaliser. -/
def blockNorm (r : Fin 512) : EReal := (∑ j : Fin 2048, blockSq P0 P1 P3 r j) + Cert.QuadAttn.cEps

/-- The stored weight: the square times the reciprocal of the normaliser. -/
def blockWeight (r : Fin 512) (j : Fin 2048) : EReal :=
  blockSq P0 P1 P3 r j * Ideal.div Cert.QuadAttn.cOne (blockNorm P0 P1 P3 r)

theorem logitVec_apply (r : Fin 512) (j : Fin 2048) : logitVec P0 P1 P3 (ix2 r j) = blockLogit P0 P1 P3 r j := by
  unfold logitVec blockLogit
  rw [addf_apply, mulf_apply, scores_apply, broadcast_apply, broadcastTo_1b_ab_apply, shapeCast_a_1a_apply,
    Cert.UnitLead.shapeCast_11a_a_apply]
  simp only [truncf_apply, Cert.UnitLead.shapeCast_11ab_ab_apply]
  rfl

theorem sqVec_apply (r : Fin 512) (j : Fin 2048) : sqVec P0 P1 P3 (ix2 r j) = blockSq P0 P1 P3 r j := by
  unfold sqVec blockSq
  rw [mulf_apply, logitVec_apply]

theorem normVec_apply (r : Fin 512) (u : Fin 1) : normVec P0 P1 P3 (ix2 r u) = blockNorm P0 P1 P3 r := by
  unfold normVec blockNorm
  rw [addf_apply, Cert.Column.shapeCast_a_a1_apply, rowsum_apply, broadcast_apply]
  simp only [sqVec_apply]
  rfl

theorem weightVec_apply (r : Fin 512) (j : Fin 2048) : weightVec P0 P1 P3 (ix2 r j) = blockWeight P0 P1 P3 r j := by
  unfold weightVec blockWeight
  rw [mulf_apply, sqVec_apply, Cert.Column.broadcastTo_a1_ab_apply, divf_apply, broadcast_apply, normVec_apply]
  rfl

/-- The stored weight at `(r, j)`. -/
theorem pay2_apply (r : Fin 512) (j : Fin 2048) : k0_pay2 (F := Ideal) P0 P1 P3 (ix2 r j) = blockWeight P0 P1 P3 r j := by
  rw [pay2_eq, weightVec_apply]

/-- The stored output at `(r, d)`: the row's weights against feature `d` of the values. -/
theorem pay4_apply (r : Fin 512) (d : Fin 64) :
    k0_pay4 (F := Ideal) P0 P1 P2 P3 (ix2 r d) = ∑ j : Fin 2048, blockWeight P0 P1 P3 r j * P2 (ix4 (0 : Fin 1) (0 : Fin 1) j d) := by
  rw [pay4_eq, mix_apply]
  simp only [truncf_apply, weightVec_apply, Cert.UnitLead.shapeCast_11ab_ab_apply]

end

end Cert.KernelIdeal.Body

end
-- ==== Proof.BlockLaw.lean ====
/-
  A block's stored values are rows of the weight array and of the output array.

  Suppose the loaded query block is rows `ι r` of head `(b, h)` of `Q`, the loaded keys and values are that head's
  rows of `K` and `V`, and the loaded mask row is batch `b`'s additive mask plus the shift `3`. Then:
  the block's logit is the specification's, because `s + (u + 3) = (s + u) + 3`; so are its square and its
  normaliser; and the stored weight `n · (1 / D)` is the quotient `n / D`, the normaliser `D` being a sum of
  squares plus `ε > 0` and so never zero.
-/
import proofs.«116007_j47691316855177_2_alg».proof.Proof.BodyRead

noncomputable section

namespace Cert.KernelIdeal.Body

open Cert.KernelIdeal Cert.KernelIdeal.Gen Idealize.ShloMosaic Idealize.ShloMosaic.ValueIdx

variable (Q K W : Cert.QuadAttn.Heads) (U : Cert.QuadAttn.Mask)
variable (P0 : Vec Ideal S1x1x512x64 .f32) (P1 : Vec Ideal S1x1x2048x64 .f32) (P2 : Vec Ideal S1x1x2048x64 .f32) (P3 : Vec Ideal S1x1x2048 .f32)
variable (b : Fin 4) (h : Fin 12) (ι : Fin 512 → Fin 2048)

theorem blockLogit_eq
    (h0 : ∀ (r : Fin 512) (d : Fin 64), P0 (ix4 (0 : Fin 1) (0 : Fin 1) r d) = Q (ix4 b h (ι r) d))
    (h1 : ∀ (j : Fin 2048) (d : Fin 64), P1 (ix4 (0 : Fin 1) (0 : Fin 1) j d) = K (ix4 b h j d))
    (h3 : ∀ j : Fin 2048, P3 (ix3 (0 : Fin 1) (0 : Fin 1) j) = U (ix2 b j) + Cert.QuadAttn.cShift)
    (r : Fin 512) (j : Fin 2048) :
    blockLogit P0 P1 P3 r j = Cert.QuadAttn.logit Q K U b h (ι r) j := by
  unfold blockLogit Cert.QuadAttn.logit Cert.QuadAttn.score
  rw [h3 j, Cert.QuadAttn.shift_assoc]
  simp only [h0, h1]

theorem blockSq_eq
    (h0 : ∀ (r : Fin 512) (d : Fin 64), P0 (ix4 (0 : Fin 1) (0 : Fin 1) r d) = Q (ix4 b h (ι r) d))
    (h1 : ∀ (j : Fin 2048) (d : Fin 64), P1 (ix4 (0 : Fin 1) (0 : Fin 1) j d) = K (ix4 b h j d))
    (h3 : ∀ j : Fin 2048, P3 (ix3 (0 : Fin 1) (0 : Fin 1) j) = U (ix2 b j) + Cert.QuadAttn.cShift)
    (r : Fin 512) (j : Fin 2048) :
    blockSq P0 P1 P3 r j = Cert.QuadAttn.sqLogit Q K U b h (ι r) j := by
  unfold blockSq Cert.QuadAttn.sqLogit
  rw [blockLogit_eq Q K U P0 P1 P3 b h ι h0 h1 h3 r j]

theorem blockNorm_eq
    (h0 : ∀ (r : Fin 512) (d : Fin 64), P0 (ix4 (0 : Fin 1) (0 : Fin 1) r d) = Q (ix4 b h (ι r) d))
    (h1 : ∀ (j : Fin 2048) (d : Fin 64), P1 (ix4 (0 : Fin 1) (0 : Fin 1) j d) = K (ix4 b h j d))
    (h3 : ∀ j : Fin 2048, P3 (ix3 (0 : Fin 1) (0 : Fin 1) j) = U (ix2 b j) + Cert.QuadAttn.cShift)
    (r : Fin 512) :
    blockNorm P0 P1 P3 r = Cert.QuadAttn.rowNorm Q K U b h (ι r) := by
  unfold blockNorm Cert.QuadAttn.rowNorm
  simp only [blockSq_eq Q K U P0 P1 P3 b h ι h0 h1 h3]

/-- The stored weight is the specification's weight of query row `ι r`. -/
theorem blockWeight_eq
    (h0 : ∀ (r : Fin 512) (d : Fin 64), P0 (ix4 (0 : Fin 1) (0 : Fin 1) r d) = Q (ix4 b h (ι r) d))
    (h1 : ∀ (j : Fin 2048) (d : Fin 64), P1 (ix4 (0 : Fin 1) (0 : Fin 1) j d) = K (ix4 b h j d))
    (h3 : ∀ j : Fin 2048, P3 (ix3 (0 : Fin 1) (0 : Fin 1) j) = U (ix2 b j) + Cert.QuadAttn.cShift)
    (r : Fin 512) (j : Fin 2048) :
    blockWeight P0 P1 P3 r j = Cert.QuadAttn.weight Q K U b h (ι r) j := by
  unfold blockWeight Cert.QuadAttn.weight
  rw [blockSq_eq Q K U P0 P1 P3 b h ι h0 h1 h3 r j, blockNorm_eq Q K U P0 P1 P3 b h ι h0 h1 h3 r]
  exact Cert.QuadAttn.mul_one_div _ _ (Cert.QuadAttn.rowNorm_ne_zero Q K U b h (ι r))

/-- The stored output is the specification's attended value of query row `ι r`. -/
theorem blockOut_eq
    (h0 : ∀ (r : Fin 512) (d : Fin 64), P0 (ix4 (0 : Fin 1) (0 : Fin 1) r d) = Q (ix4 b h (ι r) d))
    (h1 : ∀ (j : Fin 2048) (d : Fin 64), P1 (ix4 (0 : Fin 1) (0 : Fin 1) j d) = K (ix4 b h j d))
    (h2 : ∀ (j : Fin 2048) (d : Fin 64), P2 (ix4 (0 : Fin 1) (0 : Fin 1) j d) = W (ix4 b h j d))
    (h3 : ∀ j : Fin 2048, P3 (ix3 (0 : Fin 1) (0 : Fin 1) j) = U (ix2 b j) + Cert.QuadAttn.cShift)
    (r : Fin 512) (d : Fin 64) :
    (∑ j : Fin 2048, blockWeight P0 P1 P3 r j * P2 (ix4 (0 : Fin 1) (0 : Fin 1) j d)) = Cert.QuadAttn.attend Q K W U b h (ι r) d := by
  unfold Cert.QuadAttn.attend
  simp only [blockWeight_eq Q K U P0 P1 P3 b h ι h0 h1 h3, h2]

end Cert.KernelIdeal.Body

end
-- ==== Proof.MaskArray.lean ====
/-
  The shifted mask the host computes before the kernel runs, read at an index.

  From the integer mask `m[b, j]` the host forms `(1 - m[b, j]) · (-10⁴) + 3` and gives it a unit middle axis, so the
  array the kernel's fourth window stages holds, at `(b, 0, j)`, the additive mask of QuadSpec plus the shift `3`.
-/
import proofs.«116007_j47691316855177_2_alg».proof.Proof.Gen.KernelIdeal.Frame
import proofs.«116007_j47691316855177_2_alg».proof.Proof.QuadSpec
import proofs.«116007_j47691316855177_2_alg».proof.Proof.LibUnitLead
import Idealize.ShloMosaic.Lib.Pipeline.Value
import Idealize.ShloMosaic.Lib.ValueIdx
import Idealize.ShloMosaic.Lib.StableHlo.Run

noncomputable section

namespace Cert.KernelIdeal.MaskArray

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- A scalar constant broadcast over `[4, 2048]` reads its word's value everywhere. -/
theorem splat_apply (w : BitVec 32) (i : S4x2048.Idx) :
    broadcastInDim S4x2048 ![] bcast_S_S4x2048 (constant (F := Ideal) S_ .f32 w) i = Ideal.ofBits .f32 w :=
  (broadcastInDim_apply _ bcast_S_S4x2048 (constant (F := Ideal) S_ .f32 w) i ix0 (fun a => a.elim0)).trans rfl

/-- The array the mask window stages, as the host operations' term of the integer mask. -/
theorem staged_eq (c : Dev nD) :
    (V m c main_v7 : S4x1x2048.Idx → EReal)
      = shapeCast S4x1x2048
          (addf (mulf (subf (broadcastInDim S4x2048 ![] bcast_S_S4x2048 (constant (F := Ideal) S_ .f32 0x3F800000#32))
                  (sitofp .f32 (m ((c : Thread nD τ).loc main_arg3))))
              (broadcastInDim S4x2048 ![] bcast_S_S4x2048 (constant (F := Ideal) S_ .f32 0xC61C4000#32)))
            (broadcastInDim S4x2048 ![] bcast_S_S4x2048 (constant (F := Ideal) S_ .f32 0x40400000#32)))
          shapeCasts_S4x2048_S4x1x2048 := by
  dsimp only [Gen.V, Gen.hostOps0]
  after_results
  rfl

/-- At `(b, 0, j)` it holds the additive mask plus the shift. -/
theorem staged_apply (c : Dev nD) (b : Fin 4) (u : Fin 1) (j : Fin 2048) :
    (V m c main_v7 : S4x1x2048.Idx → EReal) (ix3 b u j)
      = Cert.QuadAttn.maskOf (m ((c : Thread nD τ).loc main_arg3)) (ix2 b j) + Cert.QuadAttn.cShift := by
  rw [staged_eq, Cert.UnitLead.shapeCast_ab_a1b_apply, addf_apply, mulf_apply, subf_apply, splat_apply, splat_apply, splat_apply]
  rfl

end Cert.KernelIdeal.MaskArray

end
-- ==== Proof.TileRows.lean ====
/-
  Which rows of the arguments a grid point's windows hold.

  Grid point `t` is a batch `b`, a head `h` and a tile of 512 query rows; the index maps are decided over the 192
  points. Its query window holds rows `512·tile … 512·tile + 511` of head `(b, h)`, its key and value windows the
  whole head, its mask window batch `b`'s shifted mask. A block's coordinate in the array is always
  block index × block size + the coordinate inside the block.
-/
import proofs.«116007_j47691316855177_2_alg».proof.Proof.Gen.KernelIdeal.Value
import proofs.«116007_j47691316855177_2_alg».proof.Proof.BlockLaw
import proofs.«116007_j47691316855177_2_alg».proof.Proof.MaskArray

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The index maps over the grid -/

/-- The weight window's block index at a point: batch, head, query tile, and the one key block. -/
theorem range5 : ∀ t : Fin cfg0.N, win0_5.index t (0 : Fin 4) < 4 ∧ win0_5.index t (1 : Fin 4) < 12
    ∧ win0_5.index t (2 : Fin 4) < 4 ∧ win0_5.index t (3 : Fin 4) = 0 :=
  (by decide +kernel : ∀ t : Fin grid0.N, _)

/-- The query window moves with it. -/
theorem same0 : ∀ t : Fin cfg0.N, win0_0.index t (0 : Fin 4) = win0_5.index t (0 : Fin 4)
    ∧ win0_0.index t (1 : Fin 4) = win0_5.index t (1 : Fin 4) ∧ win0_0.index t (2 : Fin 4) = win0_5.index t (2 : Fin 4)
    ∧ win0_0.index t (3 : Fin 4) = 0 :=
  (by decide +kernel : ∀ t : Fin grid0.N, _)

/-- The key window follows batch and head only. -/
theorem same1 : ∀ t : Fin cfg0.N, win0_1.index t (0 : Fin 4) = win0_5.index t (0 : Fin 4)
    ∧ win0_1.index t (1 : Fin 4) = win0_5.index t (1 : Fin 4) ∧ win0_1.index t (2 : Fin 4) = 0
    ∧ win0_1.index t (3 : Fin 4) = 0 :=
  (by decide +kernel : ∀ t : Fin grid0.N, _)

/-- So does the value window. -/
theorem same2 : ∀ t : Fin cfg0.N, win0_2.index t (0 : Fin 4) = win0_5.index t (0 : Fin 4)
    ∧ win0_2.index t (1 : Fin 4) = win0_5.index t (1 : Fin 4) ∧ win0_2.index t (2 : Fin 4) = 0
    ∧ win0_2.index t (3 : Fin 4) = 0 :=
  (by decide +kernel : ∀ t : Fin grid0.N, _)

/-- The mask window follows the batch only. -/
theorem same3 : ∀ t : Fin cfg0.N, win0_3.index t (0 : Fin 3) = win0_5.index t (0 : Fin 4)
    ∧ win0_3.index t (1 : Fin 3) = 0 ∧ win0_3.index t (2 : Fin 3) = 0 :=
  (by decide +kernel : ∀ t : Fin grid0.N, _)

/-- The output window moves with the weight window. -/
theorem same4 : ∀ t : Fin cfg0.N, win0_4.index t (0 : Fin 4) = win0_5.index t (0 : Fin 4)
    ∧ win0_4.index t (1 : Fin 4) = win0_5.index t (1 : Fin 4) ∧ win0_4.index t (2 : Fin 4) = win0_5.index t (2 : Fin 4)
    ∧ win0_4.index t (3 : Fin 4) = 0 :=
  (by decide +kernel : ∀ t : Fin grid0.N, _)

/-- Every (batch, head, query tile) is some point's. -/
theorem onto5 : ∀ (q0 : Fin 4) (q1 : Fin 12) (q2 : Fin 4), ∃ t : Fin cfg0.N, win0_5.index t = ![q0.val, q1.val, q2.val, 0] :=
  (by decide +kernel : ∀ (q0 : Fin 4) (q1 : Fin 12) (q2 : Fin 4), ∃ t : Fin grid0.N, win0_5.index t = ![q0.val, q1.val, q2.val, 0])

/-- The batch of point `t`. -/
def pB (t : Fin cfg0.N) : Fin 4 := ⟨win0_5.index t (0 : Fin 4), (range5 t).1⟩
/-- The head of point `t`. -/
def pH (t : Fin cfg0.N) : Fin 12 := ⟨win0_5.index t (1 : Fin 4), (range5 t).2.1⟩
/-- The query row of the array that row `r` of point `t`'s tile is. -/
def pRow (t : Fin cfg0.N) (r : Fin 512) : Fin 2048 :=
  ⟨win0_5.index t (2 : Fin 4) * 512 + r.val, by have := (range5 t).2.2.1; have := r.isLt; omega⟩

/-! ## The input windows' blocks as rows of the arguments -/

theorem iblk0_apply (c : Dev nD) (t : Fin cfg0.N) (r : Fin 512) (d : Fin 64) :
    (iblk m c 0 t : Vec Ideal S1x1x512x64 .f32) (ix4 (0 : Fin 1) (0 : Fin 1) r d)
      = (m ((c : Thread nD τ).loc main_arg0) : S4x12x2048x64.Idx → EReal) (ix4 (pB t) (pH t) (pRow t r) d) := by
  obtain ⟨e0, e1, e2, e3⟩ := same0 t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 512 + 1 * r.val = win0_5.index t (2 : Fin 4) * 512 + r.val; omega
  | ⟨3, _⟩ => show win0_0.index t (3 : Fin 4) * 64 + 1 * d.val = d.val; omega

theorem iblk1_apply (c : Dev nD) (t : Fin cfg0.N) (j : Fin 2048) (d : Fin 64) :
    (iblk m c 1 t : Vec Ideal S1x1x2048x64 .f32) (ix4 (0 : Fin 1) (0 : Fin 1) j d)
      = (m ((c : Thread nD τ).loc main_arg1) : S4x12x2048x64.Idx → EReal) (ix4 (pB t) (pH t) j d) := by
  obtain ⟨e0, e1, e2, e3⟩ := same1 t
  unfold iblk
  rw [View.read_apply]
  show V m c main_arg1 _ = _
  rw [V_main_arg1]
  refine congrArg _ (funext fun a => Fin.ext ?_)
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 2048 + 1 * j.val = j.val; omega
  | ⟨3, _⟩ => show win0_1.index t (3 : Fin 4) * 64 + 1 * d.val = d.val; omega

theorem iblk2_apply (c : Dev nD) (t : Fin cfg0.N) (j : Fin 2048) (d : Fin 64) :
    (iblk m c 2 t : Vec Ideal S1x1x2048x64 .f32) (ix4 (0 : Fin 1) (0 : Fin 1) j d)
      = (m ((c : Thread nD τ).loc main_arg2) : S4x12x2048x64.Idx → EReal) (ix4 (pB t) (pH t) j d) := by
  obtain ⟨e0, e1, e2, e3⟩ := same2 t
  unfold iblk
  rw [View.read_apply]
  show V m c main_arg2 _ = _
  rw [V_main_arg2]
  refine congrArg _ (funext fun a => Fin.ext ?_)
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * j.val = j.val; omega
  | ⟨3, _⟩ => show win0_2.index t (3 : Fin 4) * 64 + 1 * d.val = d.val; omega

theorem iblk3_apply (c : Dev nD) (t : Fin cfg0.N) (j : Fin 2048) :
    (iblk m c 3 t : Vec Ideal S1x1x2048 .f32) (ix3 (0 : Fin 1) (0 : Fin 1) j)
      = Cert.QuadAttn.maskOf (m ((c : Thread nD τ).loc main_arg3)) (ix2 (pB t) j) + Cert.QuadAttn.cShift := by
  obtain ⟨e0, e1, e2⟩ := same3 t
  unfold iblk
  rw [View.read_apply]
  show (V m c main_v7 : S4x1x2048.Idx → EReal) _ = _
  refine Eq.trans (congrArg (V m c main_v7 : S4x1x2048.Idx → EReal) ?_) (MaskArray.staged_apply m c (pB t) (0 : Fin 1) j)
  refine funext fun a => Fin.ext ?_
  match a with
  | ⟨0, _⟩ => show win0_3.index t (0 : Fin 3) * 1 + 1 * 0 = win0_5.index t (0 : Fin 4); omega
  | ⟨1, _⟩ => show win0_3.index t (1 : Fin 3) * 1 + 1 * 0 = 0; omega
  | ⟨2, _⟩ => show win0_3.index t (2 : Fin 3) * 2048 + 1 * j.val = j.val; omega

end Cert.KernelIdeal.Blocks

end
-- ==== Proof.Blocks.lean ====
/-
  From what each grid point writes back to the two result arrays.

  The block a point writes to the weight array is the weight array's block there, and likewise for the output
  array: the stored values are the specification's at the rows the point's windows hold. The 192 blocks tile each
  array, so after the run each array is the specification's function of the arguments, everywhere.
-/
import proofs.«116007_j47691316855177_2_alg».proof.Proof.Gen.KernelIdeal.Value
import proofs.«116007_j47691316855177_2_alg».proof.Proof.TileRows

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## What a point writes back -/

/-- The weight array of the launch's arguments. -/
abbrev weightsOf (c : Dev nD) : S4x12x2048x2048.Idx → EReal :=
  Cert.QuadAttn.weights (m ((c : Thread nD τ).loc main_arg0)) (m ((c : Thread nD τ).loc main_arg1))
    (Cert.QuadAttn.maskOf (m ((c : Thread nD τ).loc main_arg3)))

/-- The output array of the launch's arguments. -/
abbrev outputsOf (c : Dev nD) : S4x12x2048x64.Idx → EReal :=
  Cert.QuadAttn.outputs (m ((c : Thread nD τ).loc main_arg0)) (m ((c : Thread nD τ).loc main_arg1)) (m ((c : Thread nD τ).loc main_arg2))
    (Cert.QuadAttn.maskOf (m ((c : Thread nD τ).loc main_arg3)))

/-- The block the weight store leaves, at block index `y`, is the stored weight at row `y 2`, key `y 3`. -/
theorem weightBlock_apply (P0 : Vec Ideal S1x1x512x64 .f32) (P1 : Vec Ideal S1x1x2048x64 .f32) (P3 : Vec Ideal S1x1x2048 .f32)
    (y : S1x1x512x2048.Idx) :
    Value.E5 P0 P1 P3 y = Body.blockWeight P0 P1 P3 (⟨(y 2).val, (y 2).isLt⟩ : Fin 512) (⟨(y 3).val, (y 3).isLt⟩ : Fin 2048) := by
  show k0_pay2 P0 P1 P3 (Value.ix5_0 y) = _
  have e : Value.ix5_0 y = ix2 (⟨(y 2).val, (y 2).isLt⟩ : Fin 512) (⟨(y 3).val, (y 3).isLt⟩ : Fin 2048) :=
    funext fun a => by match a with | ⟨0, _⟩ => rfl | ⟨1, _⟩ => rfl
  rw [e, Body.pay2_apply]

/-- The block the output store leaves, at block index `y`, is the stored output at row `y 2`, feature `y 3`. -/
theorem outBlock_apply (P0 : Vec Ideal S1x1x512x64 .f32) (P1 : Vec Ideal S1x1x2048x64 .f32) (P2 : Vec Ideal S1x1x2048x64 .f32)
    (P3 : Vec Ideal S1x1x2048 .f32) (y : S1x1x512x64.Idx) :
    Value.E4 P0 P1 P2 P3 y
      = ∑ j : Fin 2048, Body.blockWeight P0 P1 P3 (⟨(y 2).val, (y 2).isLt⟩ : Fin 512) j * P2 (ix4 (0 : Fin 1) (0 : Fin 1) j (⟨(y 3).val, (y 3).isLt⟩ : Fin 64)) := by
  show k0_pay4 P0 P1 P2 P3 (Value.ix4_0 y) = _
  have e : Value.ix4_0 y = ix2 (⟨(y 2).val, (y 2).isLt⟩ : Fin 512) (⟨(y 3).val, (y 3).isLt⟩ : Fin 64) :=
    funext fun a => by match a with | ⟨0, _⟩ => rfl | ⟨1, _⟩ => rfl
  rw [e, Body.pay4_apply]

/-- Point `t`'s weight block, at block index `y`, is the weight of its batch and head at query row `pRow t (y 2)`, key `y 3`. -/
theorem weightPoint (c : Dev nD) (t : Fin cfg0.N) (y : S1x1x512x2048.Idx) :
    out0_5 (iblk m c 0 t) (iblk m c 1 t) (iblk m c 2 t) (iblk m c 3 t) y
      = Cert.QuadAttn.weight (m ((c : Thread nD τ).loc main_arg0)) (m ((c : Thread nD τ).loc main_arg1))
          (Cert.QuadAttn.maskOf (m ((c : Thread nD τ).loc main_arg3))) (pB t) (pH t) (pRow t ⟨(y 2).val, (y 2).isLt⟩) ⟨(y 3).val, (y 3).isLt⟩ := by
  unfold out0_5
  simp only [View.ld_unit_zero (S := S1x1x512x64) hz4, View.ld_unit_zero (S := S1x1x2048x64) hz4, View.ld_unit_zero (S := S1x1x2048) hz3]
  rw [Value.canon5_eq, weightBlock_apply]
  exact Body.blockWeight_eq (m ((c : Thread nD τ).loc main_arg0)) (m ((c : Thread nD τ).loc main_arg1))
    (Cert.QuadAttn.maskOf (m ((c : Thread nD τ).loc main_arg3))) (iblk m c 0 t) (iblk m c 1 t) (iblk m c 3 t) (pB t) (pH t) (pRow t)
    (iblk0_apply m c t) (iblk1_apply m c t) (iblk3_apply m c t) ⟨(y 2).val, (y 2).isLt⟩ ⟨(y 3).val, (y 3).isLt⟩

/-- Point `t`'s output block, at block index `y`, is the attended value at query row `pRow t (y 2)`, feature `y 3`. -/
theorem outPoint (c : Dev nD) (t : Fin cfg0.N) (y : S1x1x512x64.Idx) :
    out0_4 (iblk m c 0 t) (iblk m c 1 t) (iblk m c 2 t) (iblk m c 3 t) y
      = Cert.QuadAttn.attend (m ((c : Thread nD τ).loc main_arg0)) (m ((c : Thread nD τ).loc main_arg1)) (m ((c : Thread nD τ).loc main_arg2))
          (Cert.QuadAttn.maskOf (m ((c : Thread nD τ).loc main_arg3))) (pB t) (pH t) (pRow t ⟨(y 2).val, (y 2).isLt⟩) ⟨(y 3).val, (y 3).isLt⟩ := by
  unfold out0_4
  simp only [View.ld_unit_zero (S := S1x1x512x64) hz4, View.ld_unit_zero (S := S1x1x2048x64) hz4, View.ld_unit_zero (S := S1x1x2048) hz3]
  rw [Value.canon4_eq, outBlock_apply]
  exact Body.blockOut_eq (m ((c : Thread nD τ).loc main_arg0)) (m ((c : Thread nD τ).loc main_arg1)) (m ((c : Thread nD τ).loc main_arg2))
    (Cert.QuadAttn.maskOf (m ((c : Thread nD τ).loc main_arg3))) (iblk m c 0 t) (iblk m c 1 t) (iblk m c 2 t) (iblk m c 3 t) (pB t) (pH t) (pRow t)
    (iblk0_apply m c t) (iblk1_apply m c t) (iblk2_apply m c t) (iblk3_apply m c t) ⟨(y 2).val, (y 2).isLt⟩ ⟨(y 3).val, (y 3).isLt⟩

/-- What point `t` writes back to the weight array is that array's block there. -/
theorem weightFlushed (c : Dev nD) (t : Fin cfg0.N) :
    (dats m 0 c).flushed 5 t = ((cfg0.win 5).blk t).view.read (Elt Ideal) (weightsOf m c) := by
  rw [Value.flushed5]
  funext y
  have hy0 : (y 0).val < 1 := (y 0).isLt
  have hy1 : (y 1).val < 1 := (y 1).isLt
  obtain ⟨-, -, -, e3⟩ := range5 t
  show out0_5 (iblk m c 0 t) (iblk m c 1 t) (iblk m c 2 t) (iblk m c 3 t) y = weightsOf m c (((cfg0.win 5).blk t).view.emb y)
  rw [weightPoint]
  show _ = Cert.QuadAttn.weight _ _ _ ((((cfg0.win 5).blk t).view.emb y) 0) ((((cfg0.win 5).blk t).view.emb y) 1)
    ((((cfg0.win 5).blk t).view.emb y) 2) ((((cfg0.win 5).blk t).view.emb y) 3)
  refine congr (congr (congr (congrArg _ (Fin.ext ?_)) (Fin.ext ?_)) (Fin.ext ?_)) (Fin.ext ?_)
  · show win0_5.index t (0 : Fin 4) = win0_5.index t (0 : Fin 4) * 1 + 1 * (y 0).val; omega
  · show win0_5.index t (1 : Fin 4) = win0_5.index t (1 : Fin 4) * 1 + 1 * (y 1).val; omega
  · show win0_5.index t (2 : Fin 4) * 512 + (y 2).val = win0_5.index t (2 : Fin 4) * 512 + 1 * (y 2).val; omega
  · show (y 3).val = win0_5.index t (3 : Fin 4) * 2048 + 1 * (y 3).val; omega

/-- What point `t` writes back to the output array is that array's block there. -/
theorem outFlushed (c : Dev nD) (t : Fin cfg0.N) :
    (dats m 0 c).flushed 4 t = ((cfg0.win 4).blk t).view.read (Elt Ideal) (outputsOf m c) := by
  rw [Value.flushed4]
  funext y
  have hy0 : (y 0).val < 1 := (y 0).isLt
  have hy1 : (y 1).val < 1 := (y 1).isLt
  obtain ⟨e0, e1, e2, e3⟩ := same4 t
  show out0_4 (iblk m c 0 t) (iblk m c 1 t) (iblk m c 2 t) (iblk m c 3 t) y = outputsOf m c (((cfg0.win 4).blk t).view.emb y)
  rw [outPoint]
  show _ = Cert.QuadAttn.attend _ _ _ _ ((((cfg0.win 4).blk t).view.emb y) 0) ((((cfg0.win 4).blk t).view.emb y) 1)
    ((((cfg0.win 4).blk t).view.emb y) 2) ((((cfg0.win 4).blk t).view.emb y) 3)
  refine congr (congr (congr (congrArg _ (Fin.ext ?_)) (Fin.ext ?_)) (Fin.ext ?_)) (Fin.ext ?_)
  · show win0_5.index t (0 : Fin 4) = win0_4.index t (0 : Fin 4) * 1 + 1 * (y 0).val; omega
  · show win0_5.index t (1 : Fin 4) = win0_4.index t (1 : Fin 4) * 1 + 1 * (y 1).val; omega
  · show win0_5.index t (2 : Fin 4) * 512 + (y 2).val = win0_4.index t (2 : Fin 4) * 512 + 1 * (y 2).val; omega
  · show (y 3).val = win0_4.index t (3 : Fin 4) * 64 + 1 * (y 3).val; omega

/-! ## The blocks tile the arrays -/

theorem mem_weightBlk (t : Fin cfg0.N) (i : S4x12x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v8_1).slice (win0_5.rect t)).set ↔ _
  rw [View.set_slice_whole, Rect.mem_set_unit]
  exact Iff.rfl

theorem mem_outBlk (t : Fin cfg0.N) (i : S4x12x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v8_0).slice (win0_4.rect t)).set ↔ _
  rw [View.set_slice_whole, Rect.mem_set_unit]
  exact Iff.rfl

/-- Every index of the weight array is in the block of the point of its batch, head and query tile. -/
theorem weightCover (i : S4x12x2048x2048.Idx) :
    ∃ t : Fin cfg0.N, (cfg0.win 5).flush t = true ∧ i ∈ ((cfg0.win 5).blk t).view.set := by
  have hi0 : (i 0).val < 4 := (i 0).isLt
  have hi1 : (i 1).val < 12 := (i 1).isLt
  have hi2 : (i 2).val < 2048 := (i 2).isLt
  have hi3 : (i 3).val < 2048 := (i 3).isLt
  obtain ⟨t, ht⟩ := onto5 ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_weightBlk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array is in the block of the point of its batch, head and query tile. -/
theorem outCover (i : S4x12x2048x64.Idx) :
    ∃ t : Fin cfg0.N, (cfg0.win 4).flush t = true ∧ i ∈ ((cfg0.win 4).blk t).view.set := by
  have hi0 : (i 0).val < 4 := (i 0).isLt
  have hi1 : (i 1).val < 12 := (i 1).isLt
  have hi2 : (i 2).val < 2048 := (i 2).isLt
  have hi3 : (i 3).val < 64 := (i 3).isLt
  obtain ⟨t, ht⟩ := onto5 ⟨(i 0).val, hi0⟩ ⟨(i 1).val, hi1⟩ ⟨(i 2).val / 512, by omega⟩
  obtain ⟨e0, e1, e2, e3⟩ := same4 t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_outBlk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

theorem weightFinal (c : Dev nD) : (dats m 0 c).arrAt 5 cfg0.N = weightsOf m c :=
  (dats m 0 c).arrAt_eq_of_cover 5 (weightsOf m c) (fun t _ => weightFlushed m c t) weightCover

theorem outFinal (c : Dev nD) : (dats m 0 c).arrAt 4 cfg0.N = outputsOf m c :=
  (dats m 0 c).arrAt_eq_of_cover 4 (outputsOf m c) (fun t _ => outFlushed m c t) outCover

/-- The kernel's run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v8_0) = outputsOf m c
      ∧ r.2.mem ((c : Thread nD τ).loc main_v8_1) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (outFinal m c), (h c).2.1.trans (weightFinal m c), (h c).2.2⟩)
    (Value.run_blocks m ρ)

end Cert.KernelIdeal.Blocks

end
-- ==== Proof.RefRead.lean ====
/-
  The reference's two results, index by index, are the weight array and the output array of QuadSpec.

  Reading the host program one operation at a time: the logit at `(b, h, i, j)` is
  `((∑_d q·k) · (1/8) + (1 - m[b, j]) · (-10⁴)) + 3`; its square is summed over the keys from a zero initial value,
  `ε` is added, and the square is divided by that; the output contracts the weights with the values over the keys.
-/
import proofs.«116007_j47691316855177_2_alg».proof.Proof.Gen.ReferenceIdeal.Read
import proofs.«116007_j47691316855177_2_alg».proof.Proof.QuadSpec

noncomputable section

namespace Cert.ReferenceIdeal.RefValue

open Cert.ReferenceIdeal Cert.ReferenceIdeal.Read Idealize.ShloMosaic Idealize.ShloMosaic.ValueIdx

variable (x0 x1 x2 : (⟨S4x12x2048x64, .f32⟩ : BufTy).Contents (Elt Ideal)) (x3 : (⟨S4x2048, .i32⟩ : BufTy).Contents (Elt Ideal))

/-- The host's logit is the specification's. -/
theorem logit_eq (b : Fin 4) (h : Fin 12) (i j : Fin 2048) :
    val_main_v12 (F := Ideal) x0 x1 x3 (ix4 b h i j) = Cert.QuadAttn.logit x0 x1 (Cert.QuadAttn.maskOf x3) b h i j := by
  have el : ∀ d : Fin 64, lidx_main_v0 (ix4 b h i j) d = ix4 b h i d := fun d =>
    funext fun a => Fin.ext (by match a with | ⟨0, _⟩ => rfl | ⟨1, _⟩ => rfl | ⟨2, _⟩ => rfl | ⟨3, _⟩ => rfl)
  have er : ∀ d : Fin 64, ridx_main_v0 (ix4 b h i j) d = ix4 b h j d := fun d =>
    funext fun a => Fin.ext (by match a with | ⟨0, _⟩ => rfl | ⟨1, _⟩ => rfl | ⟨2, _⟩ => rfl | ⟨3, _⟩ => rfl)
  have em : idx_main_v6 (idx_main_v9 (ix4 b h i j)) = ix2 b j :=
    funext fun a => Fin.ext (by match a with | ⟨0, _⟩ => rfl | ⟨1, _⟩ => rfl)
  rw [val_main_v12_apply, val_main_v10_apply, val_main_v2_apply, val_main_v0_apply, val_main_v1_apply, val_main_cst_apply,
    val_main_v9_apply, val_main_v8_apply, val_main_v6_apply, val_main_v5_apply, val_main_v4_apply, val_main_cst_0_apply,
    val_main_v3_apply, val_main_v7_apply, val_main_cst_1_apply, val_main_v11_apply, val_main_cst_2_apply]
  simp only [el, er, em]
  rfl

/-- The host's squared logit is the specification's. -/
theorem sqLogit_eq (b : Fin 4) (h : Fin 12) (i j : Fin 2048) :
    val_main_v13 (F := Ideal) x0 x1 x3 (ix4 b h i j) = Cert.QuadAttn.sqLogit x0 x1 (Cert.QuadAttn.maskOf x3) b h i j := by
  rw [val_main_v13_apply, logit_eq]
  rfl

/-- The host's normaliser, kept as a unit column, is the specification's. -/
theorem rowNorm_eq (b : Fin 4) (h : Fin 12) (i : Fin 2048) (u : Fin 1) :
    val_main_v17 (F := Ideal) x0 x1 x3 (ix4 b h i u) = Cert.QuadAttn.rowNorm x0 x1 (Cert.QuadAttn.maskOf x3) b h i := by
  have ek : ∀ j : Fin 2048, idx_main_v14 (idx_main_v15 (ix4 b h i u)) j = ix4 b h i j := fun j =>
    funext fun a => Fin.ext (by match a with | ⟨0, _⟩ => rfl | ⟨1, _⟩ => rfl | ⟨2, _⟩ => rfl | ⟨3, _⟩ => rfl)
  rw [val_main_v17_apply, val_main_v15_apply, val_main_v14_apply, val_main_cst_3_apply, val_main_v16_apply, val_main_cst_4_apply]
  simp only [ek, sqLogit_eq]
  show (Ideal.ofBits .f32 0x00000000#32 + _) + _ = _
  rw [Ideal.ofBits_zero_f32, zero_add]
  rfl

/-- The reference's second result is the weight array. -/
theorem weights_eq : val_main_v19 (F := Ideal) x0 x1 x3 = Cert.QuadAttn.weights x0 x1 (Cert.QuadAttn.maskOf x3) := by
  funext y
  obtain ⟨b, h, i, j, rfl⟩ : ∃ (b : Fin 4) (h : Fin 12) (i j : Fin 2048), y = ix4 b h i j := ⟨y 0, y 1, y 2, y 3, eq_ix4 y⟩
  have eu : idx_main_v18 (ix4 b h i j) = ix4 b h i (0 : Fin 1) :=
    funext fun a => Fin.ext (by match a with | ⟨0, _⟩ => rfl | ⟨1, _⟩ => rfl | ⟨2, _⟩ => rfl | ⟨3, _⟩ => rfl)
  rw [val_main_v19_apply, val_main_v18_apply, eu, sqLogit_eq, rowNorm_eq]
  rfl

/-- The reference's first result is the output array. -/
theorem outputs_eq : val_main_v20 (F := Ideal) x0 x1 x2 x3 = Cert.QuadAttn.outputs x0 x1 x2 (Cert.QuadAttn.maskOf x3) := by
  funext y
  obtain ⟨b, h, i, d, rfl⟩ : ∃ (b : Fin 4) (h : Fin 12) (i : Fin 2048) (d : Fin 64), y = ix4 b h i d := ⟨y 0, y 1, y 2, y 3, eq_ix4 y⟩
  have el : ∀ j : Fin 2048, lidx_main_v20 (ix4 b h i d) j = ix4 b h i j := fun j =>
    funext fun a => Fin.ext (by match a with | ⟨0, _⟩ => rfl | ⟨1, _⟩ => rfl | ⟨2, _⟩ => rfl | ⟨3, _⟩ => rfl)
  have er : ∀ j : Fin 2048, ridx_main_v20 (ix4 b h i d) j = ix4 b h j d := fun j =>
    funext fun a => Fin.ext (by match a with | ⟨0, _⟩ => rfl | ⟨1, _⟩ => rfl | ⟨2, _⟩ => rfl | ⟨3, _⟩ => rfl)
  rw [val_main_v20_apply, weights_eq]
  simp only [el, er]
  rfl

end Cert.ReferenceIdeal.RefValue

end
-- ==== Proof.lean ====
/-
  The certificate of a sum-normalised quadratic attention kernel against its jnp reference, on the extended reals.

  Both programs compute, for every batch `b`, head `h`, query `i` and key `j`,
      `x = (q_i · k_j) / 8 + (1 - m[b, j]) · (-10⁴) + 3`,   `p = x² / (∑_j x² + ε)`,   `out_i = ∑_j p_j · v_j`.
  They differ in three places, none of which changes a value here:
  * the kernel adds the shift `3` to the mask on the host and then adds the sum to the scaled score, the reference adds
    the mask and then the shift: addition on the extended reals is associative;
  * the kernel multiplies the square by the reciprocal `1 / D` of the normaliser, the reference divides by `D`: the
    two agree when `D ≠ 0`, and `D` is a sum of squares plus `ε > 0`, so it is positive;
  * the kernel works a tile of 512 query rows at a time, with its matrix products on narrowed operands and its row
    sum on the lanes: a change of float format is the identity, a product into a zero accumulator and the host's
    contraction are the same sum, and the 192 tiles cover each result array.
  No step uses that the inputs are finite. The idealisation rewrote nothing, so its preservation claim is trivial; the
  frames are the generated ones, the reference's being its generated run with the results dropped.
-/
import proofs.«116007_j47691316855177_2_alg».proof.Defs
import proofs.«116007_j47691316855177_2_alg».proof.Proof.Gen.Kernel
import proofs.«116007_j47691316855177_2_alg».proof.Proof.Gen.Kernel.Skeleton
import proofs.«116007_j47691316855177_2_alg».proof.Proof.Gen.Kernel.Launch
import proofs.«116007_j47691316855177_2_alg».proof.Proof.Gen.Kernel.Points
import proofs.«116007_j47691316855177_2_alg».proof.Proof.Gen.Kernel.Frame
import proofs.«116007_j47691316855177_2_alg».proof.Proof.Gen.KernelIdeal
import proofs.«116007_j47691316855177_2_alg».proof.Proof.Gen.KernelIdeal.Skeleton
import proofs.«116007_j47691316855177_2_alg».proof.Proof.Gen.KernelIdeal.Launch
import proofs.«116007_j47691316855177_2_alg».proof.Proof.Gen.KernelIdeal.Points
import proofs.«116007_j47691316855177_2_alg».proof.Proof.Gen.KernelIdeal.Frame
import proofs.«116007_j47691316855177_2_alg».proof.Proof.Gen.ReferenceIdeal
import proofs.«116007_j47691316855177_2_alg».proof.Proof.Gen.Pre_finite_inputs
import proofs.«116007_j47691316855177_2_alg».proof.Proof.Gen.KernelIdeal.Value
import proofs.«116007_j47691316855177_2_alg».proof.Proof.Gen.ReferenceIdeal.Run
import proofs.«116007_j47691316855177_2_alg».proof.Proof.Gen.ReferenceIdeal.Read
import proofs.«116007_j47691316855177_2_alg».proof.Proof.Blocks
import proofs.«116007_j47691316855177_2_alg».proof.Proof.RefRead
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- Both runs end with the output array and the weight array of the specification, at arguments that agree. -/
theorem algebraic : Cert.algebraic_KernelIdeal_ReferenceIdeal := by
  intro m ρ m' ρ' _ hagree
  refine ⟨fun c => Cert.KernelIdeal.Blocks.outputsOf m c, fun c => Cert.KernelIdeal.Blocks.weightsOf m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v20_eq (F := Ideal) _ _ _ _).trans ?_
    rw [Cert.ReferenceIdeal.RefValue.outputs_eq, (hagree c).1, (hagree c).2.1, (hagree c).2.2.1, (hagree c).2.2.2]
  · refine (Cert.ReferenceIdeal.Read.val_main_v19_eq (F := Ideal) _ _ _).trans ?_
    rw [Cert.ReferenceIdeal.RefValue.weights_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
